-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8x262144 : Shape := ⟨3, ![16, 8, 262144]⟩
abbrev S_ : Shape := ⟨0, ![]⟩

class Facts : Prop where
  bcast_S_S16x8x262144 : S_.BroadcastsInDim S16x8x262144 (![] : Fin 0 → Fin S16x8x262144.rank)
  reducesTo_S16x8x262144_S_d0_1_2 : S16x8x262144.ReducesTo [0, 1, 2] S_
  h_S_ : 0 < S_.numel

variable [Facts]

def fn {F : FTy → Type} [FloatOps F] (main_arg0 : FVec F S16x8x262144 .f32) : IVec S_ 1 :=
  let main_v0 : FVec F S16x8x262144 .f32 := Host.absf main_arg0
  let main_cst : FVec F S_ .f32 := constant S_ .f32 0x7F800000#32
  let main_v1 : FVec F S16x8x262144 .f32 := broadcastInDim S16x8x262144 ![] bcast_S_S16x8x262144 main_cst
  let main_v2 : IVec S16x8x262144 1 := cmpf .olt main_v0 main_v1
  let main_c : IVec S_ 1 := constantI S_ 1 1#1
  let main_v3 : IVec S_ 1 := (fun x v => Host.reduce IntOp.andi x v reducesTo_S16x8x262144_S_d0_1_2 h_S_) main_v2 main_c
  main_v3
-- ==== Kernel.lean ====
abbrev S16x8x262144 : Shape := ⟨3, ![16, 8, 262144]⟩
abbrev S16x8x16384 : Shape := ⟨3, ![16, 8, 16384]⟩
abbrev S1x8x1 : Shape := ⟨3, ![1, 8, 1]⟩

abbrev nBuf : Space → Nat
  | .hbm => 2
  | .vmem => 4
  | .smem => 0
  | _ => 0

abbrev bufTy : (tb : Table) → Fin (tcTables nBuf tb) → BufTy
  | .hbm, ⟨0, _⟩ => ⟨S16x8x262144, .f32⟩
  | .hbm, ⟨1, _⟩ => ⟨S16x8x262144, .f32⟩
  | .local _ .vmem, ⟨0, _⟩ => ⟨S16x8x16384, .f32⟩
  | .local _ .vmem, ⟨1, _⟩ => ⟨S16x8x16384, .f32⟩
  | .local _ .vmem, ⟨2, _⟩ => ⟨S16x8x16384, .f32⟩
  | .local _ .vmem, ⟨3, _⟩ => ⟨S16x8x16384, .f32⟩
  | _, _ => ⟨S16x8x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S16x8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S1x8x1_d1_w32 : S1x8x1.Iotas .tc 32 [1]
  inb_S16x8x16384_S16x8x16384_0_0_0 : ∀ a, (![0, 0, 0] : Fin 3 → Nat) a + S16x8x16384.size a ≤ S16x8x16384.size a
  h_S16x8x16384 : 0 < S16x8x16384.numel
  broadcasts_S1x8x1_S16x8x16384 : S1x8x1.Broadcasts S16x8x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8x16384.size a ≤ S16x8x262144.size a
  hwx0_0 : ∀ i : grid0.Coords, EltTy.bits .f32 = 32 ∨ (Rect.block (s := S16x8x262144) S16x8x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8x16384.size a ≤ S16x8x262144.size a
  hwx0_1 : ∀ i : grid0.Coords, EltTy.bits .f32 = 32 ∨ (Rect.block (s := S16x8x262144) S16x8x16384.size (cc0_transform_1 i) (hinb0_1 i)).WholeWords (EltTy.packing .f32)

variable [Facts₀]

abbrev win0_0 : Pipeline.Window sig grid0 :=
  Pipeline.Window.ofSpec (Memref.whole main_arg0) S16x8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x8x16384.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S16x8x262144 : Shape := ⟨3, ![16, 8, 262144]⟩
abbrev S8 : Shape := ⟨1, ![8]⟩
abbrev S_ : Shape := ⟨0, ![]⟩
abbrev S1x8x1 : Shape := ⟨3, ![1, 8, 1]⟩

abbrev nBuf : Space → Nat
  | .hbm => 14
  | .vmem => 0
  | .smem => 0
  | _ => 0

abbrev bufTy : (tb : Table) → Fin (tcTables nBuf tb) → BufTy
  | .hbm, ⟨0, _⟩ => ⟨S16x8x262144, .f32⟩
  | .hbm, ⟨1, _⟩ => ⟨S8, .i32⟩
  | .hbm, ⟨2, _⟩ => ⟨S_, .i32⟩
  | .hbm, ⟨3, _⟩ => ⟨S8, .i32⟩
  | .hbm, ⟨4, _⟩ => ⟨S8, .i1⟩
  | .hbm, ⟨5, _⟩ => ⟨S_, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S1x8x1, .f32⟩
  | .hbm, ⟨12, _⟩ => ⟨S16x8x262144, .f32⟩
  | .hbm, ⟨13, _⟩ => ⟨S16x8x262144, .f32⟩
  | _, _ => ⟨S16x8x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8x1_1 : S8.BroadcastsInDim S1x8x1 (![1] : Fin 1 → Fin S1x8x1.rank)
  bcast_S1x8x1_S16x8x262144_0_1_2 : S1x8x1.BroadcastsInDim S16x8x262144 (![0, 1, 2] : Fin 3 → Fin S16x8x262144.rank)

variable [Facts₀]

class Facts : Prop extends Facts₀ where

variable [Facts]
-- ==== Proof.ChannelScale.lean ====
/-
  The function both programs compute, stated once and over no program's text.

  The input is an array `x` of shape [16, 8, 262144]: batch, channel, time. The result multiplies each entry by a
  factor that depends on the entry's CHANNEL only: channel 0 keeps its value (factor 1.0), every other channel is
  halved (factor 0.5). Both programs build the factor the same way, by comparing the channel's number, as a 32-bit
  word, with the zero word and selecting one of two float literals; so the factor is written here exactly like that,
  and no property of the two literals (nor of the multiplication) is ever needed: the two sides are one term.
-/
import Idealize.ShloMosaic.PureOps.Ideal

noncomputable section

namespace Cert.ChannelScale

open Idealize.ShloMosaic

variable {F : FTy → Type} [FloatOps F]

/-- The array's shape: 16 batches, 8 channels, 262144 time steps. -/
abbrev Arr : Shape := ⟨3, ![16, 8, 262144]⟩

/-- The factor of channel number `c`: the f32 literal 1.0 when the 32-bit word of `c` is the zero word, the f32
    literal 0.5 otherwise. -/
def factor (c : Nat) : F .f32 :=
  Scalar.select (IntOp.cmpi .eq (BitVec.ofNat 32 c) 0#32)
    (FloatOps.ofBits .f32 0x3F800000#32) (FloatOps.ofBits .f32 0x3F000000#32)

/-- The result array: entry (b, c, t) of `x` times the factor of its channel `c` (the middle coordinate). -/
def scaled (x : Arr.Idx → F .f32) : Arr.Idx → F .f32 :=
  fun i => FloatOps.mulf (x i) (factor (i 1).val)

end Cert.ChannelScale

end
-- ==== Proof.RefIsScaled.lean ====
/-
  The reference computes the channel-scaled array.

  Its program builds a vector of 8 factors — `iota` over the 8 channels compared with a broadcast zero, the two
  literals 1.0 and 0.5 broadcast to 8 entries, a `select` between them —, lays it out as [1, 8, 1], broadcasts that to
  the array's shape along batch and time, and multiplies. Read at an index (b, c, t), every layout step only forwards the
  channel coordinate `c`: the two broadcasts read their operand at (0, c, 0) and then at (c); the `iota` there is the
  word of `c`; the scalars broadcast to 8 entries are themselves. What is left is `x (b, c, t)` times the factor of `c`.
-/
import proofs.«109062_j54365696033604_2_alg».proof.Proof.Gen.ReferenceIdeal.Read
import proofs.«109062_j54365696033604_2_alg».proof.Proof.ChannelScale

noncomputable section

namespace Cert.ReferenceIdeal.Scaled

open Cert.ReferenceIdeal Cert.ReferenceIdeal.Read Idealize.ShloMosaic Cert.ChannelScale

variable {F : FTy → Type} [FloatOps F]

/-- The reference's last stage, the product with the broadcast factors, is `scaled` of its argument array: index by
    index, the operations' read-at-an-index equations chained from the product inwards, after which both sides are the
    same term. -/
theorem result_eq (x : (⟨S16x8x262144, .f32⟩ : BufTy).Contents (Elt F)) :
    val_main_v7 (F := F) x = scaled x := by
  funext i
  rw [val_main_v7_apply, val_main_v6_apply, val_main_v5_apply, val_main_v4_apply, val_main_v3_apply,
    val_main_v2_apply, val_main_v0_apply, val_main_v1_apply, val_main_c_apply,
    val_main_call0_v0_apply, val_main_cst_apply, val_main_call0_v1_apply, val_main_cst_0_apply]
  rfl

end Cert.ReferenceIdeal.Scaled

end
-- ==== Proof.BodyIsScaled.lean ====
/-
  What the kernel's body stores, read at an index of its block.

  At every grid point the body loads one [16, 8, 16384] block `x` (all batches, all channels, 16384 consecutive time
  steps), builds the [1, 8, 1] column of factors in registers — `iota` along the channel axis compared with a zero
  splat, a `select` between splats of the literals 1.0 and 0.5 —, broadcasts the column to the block's shape and stores
  the product. At (b, c, s) of the block the broadcast reads the column at (0, c, 0), where the `iota` is the word of
  `c`; so the stored entry is `x (b, c, s)` times the factor of channel `c`: the block's time coordinate plays no part
  in the factor, which is why the blocks of the result are restrictions of ONE whole-array function.
-/
import proofs.«109062_j54365696033604_2_alg».proof.Proof.Gen.KernelIdeal.Skeleton
import proofs.«109062_j54365696033604_2_alg».proof.Proof.ChannelScale
import Idealize.ShloMosaic.Lib.Pipeline.Value

noncomputable section

namespace Cert.KernelIdeal.Scaled

open Cert.KernelIdeal Cert.KernelIdeal.Gen Idealize.ShloMosaic Cert.ChannelScale

variable {F : FTy → Type} [FloatOps F]

/-- Where an index (b, c, s) of a block reads the broadcast [1, 8, 1] column: at (0, c, 0). -/
def column (j : S16x8x16384.Idx) : S1x8x1.Idx := fun a => match a with
  | ⟨0, _⟩ => ⟨0, Nat.one_pos⟩
  | ⟨1, _⟩ => ⟨(j 1).val, (j 1).isLt⟩
  | ⟨2, _⟩ => ⟨0, Nat.one_pos⟩

/-- The stored block at (b, c, s): the loaded block there, times the factor of channel `c`. The product is pointwise;
    the broadcast reads the column at `column j` (its two unit axes at 0, its channel axis at `c`); the `select`, the
    comparison and the splats are pointwise on the column; the `iota` along the channel axis is the coordinate's word. -/
theorem stored_apply (x : Vec F S16x8x16384 .f32) (j : S16x8x16384.Idx) :
    k0_pay1 x j = FloatOps.mulf (x j) (factor (j 1).val) := by
  unfold k0_pay1
  show FloatOps.mulf (x j) (broadcastTo S16x8x16384 _ broadcasts_S1x8x1_S16x8x16384 j) = _
  rw [broadcastTo_apply _ broadcasts_S1x8x1_S16x8x16384 j (column j) (fun a => match a with
    | ⟨0, _⟩ => by show 0 = if (1 : Nat) = 1 then 0 else _; rw [if_pos rfl]
    | ⟨1, _⟩ => by show (j 1).val = if (8 : Nat) = 1 then 0 else _; rw [if_neg (by decide)]; rfl
    | ⟨2, _⟩ => by show 0 = if (1 : Nat) = 1 then 0 else _; rw [if_pos rfl])]
  show FloatOps.mulf (x j) (Scalar.select (IntOp.cmpi .eq (iota .tc S1x8x1 32 [1] iota_S1x8x1_d1_w32 (column j)) 0#32)
    (FloatOps.ofBits .f32 0x3F800000#32) (FloatOps.ofBits .f32 0x3F000000#32)) = _
  rw [iota_single_apply]
  rfl

end Cert.KernelIdeal.Scaled

end
-- ==== Proof.WholeArray.lean ====
/-
  From the blocks to the whole result array.

  The grid has 16 points; point `t` stages block (0, 0, t) of the input — all 16 batches, all 8 channels, time steps
  16384·t … 16384·t + 16383 — and writes the body's result back to the SAME block of the output: the two windows have one
  index map. So an index (b, c, s) of point `t`'s block is the array index (b, c, 16384·t + s) for both windows, and its
  channel coordinate is `c` itself (the block index on the channel axis is 0). With the body's stored value at an index
  (the loaded entry times the factor of its channel), what point `t` writes back is therefore block `t` of the ONE function
  `scaled x`, `x` the argument array. The 16 blocks cover the array — the time step `s` lies in block `s / 16384` — so the
  result array after the run is `scaled x` everywhere.
-/
import proofs.«109062_j54365696033604_2_alg».proof.Proof.Gen.KernelIdeal.Value
import proofs.«109062_j54365696033604_2_alg».proof.Proof.BodyIsScaled

noncomputable section

namespace Cert.KernelIdeal.Scaled

open Cert.KernelIdeal Cert.KernelIdeal.Gen Idealize.ShloMosaic Idealize.ShloMosaic.TcCoe Idealize.SL.Sem Cert.ChannelScale
open Idealize.ShloMosaic.Pipeline (Dat)

variable {F : FTy → Type} [FloatOps F]
variable (m : (ℓ : Loc nD τ sig) → Buf (Elt F) ℓ) (ρ : Dev nD → PrngReg)

/-- The body's one store starts at the block's origin. -/
theorem origin : (![0, 0, 0] : Fin 3 → Nat) = fun _ => 0 := funext fun a => by fin_cases a <;> rfl

/-- The two windows' index maps, decided over the 16 grid points: the input's block index is the output's on every
    axis, and the output's is (0, 0, t). -/
theorem block_index : ∀ t : Fin cfg0.N, win0_0.index t (0 : Fin 3) = win0_1.index t (0 : Fin 3)
    ∧ win0_0.index t (1 : Fin 3) = win0_1.index t (1 : Fin 3)
    ∧ win0_0.index t (2 : Fin 3) = win0_1.index t (2 : Fin 3)
    ∧ win0_1.index t (0 : Fin 3) = 0
    ∧ win0_1.index t (1 : Fin 3) = 0
    ∧ win0_1.index t (2 : Fin 3) = t.val :=
  (by decide +kernel : ∀ t : Fin grid0.N, _)

/-- WHAT POINT `t` WRITES BACK is block `t` of `scaled` of the argument array as the region finds it: the body's stored
    value at an index of the block is the input block there times the factor of the index's channel; the input block there
    is the array at the output block's own array index (one index map); and that array index has the same channel. -/
theorem flushed_eq (c : Dev nD) (t : Fin cfg0.N) :
    (dats m 0 c).flushed 1 t = ((cfg0.win 1).blk t).view.read (Elt F) (scaled (V m c main_arg0)) := by
  rw [Value.flushed1]
  unfold out0_1
  rw [View.canon_unit_zero origin]
  simp only [View.ld_unit_zero (S := S16x8x16384) origin]
  obtain ⟨e0, e1, e2, z0, z1, -⟩ := block_index t
  funext j
  show k0_pay1 (iblk m c 0 t) j = scaled (V m c main_arg0) (((cfg0.win 1).blk t).view.emb j)
  refine (stored_apply (iblk m c 0 t) j).trans ?_
  show FloatOps.mulf (V m c main_arg0 (((cfg0.win 0).blk t).view.emb j)) (factor (j 1).val)
    = FloatOps.mulf (V m c main_arg0 (((cfg0.win 1).blk t).view.emb j)) (factor ((((cfg0.win 1).blk t).view.emb j) 1).val)
  have h0 : ((cfg0.win 0).blk t).view.emb j = ((cfg0.win 1).blk t).view.emb j := by
    funext a; apply Fin.ext
    match a with
    | ⟨0, _⟩ => show win0_0.index t (0 : Fin 3) * 16 + 1 * (j 0).val = win0_1.index t (0 : Fin 3) * 16 + 1 * (j 0).val; omega
    | ⟨1, _⟩ => show win0_0.index t (1 : Fin 3) * 8 + 1 * (j 1).val = win0_1.index t (1 : Fin 3) * 8 + 1 * (j 1).val; omega
    | ⟨2, _⟩ => show win0_0.index t (2 : Fin 3) * 16384 + 1 * (j 2).val = win0_1.index t (2 : Fin 3) * 16384 + 1 * (j 2).val; omega
  have h1 : ((((cfg0.win 1).blk t).view.emb j) 1).val = (j 1).val := by
    show win0_1.index t (1 : Fin 3) * 8 + 1 * (j 1).val = (j 1).val; omega
  rw [h0, h1]

/-- An index of the array is in point `t`'s block iff each coordinate is in the block's range on its axis. -/
theorem mem_block (t : Fin cfg0.N) (i : S16x8x262144.Idx) :
    i ∈ ((cfg0.win 1).blk t).view.set ↔ ∀ a : Fin 3, win0_1.index t a * S16x8x16384.size a ≤ (i a).val
      ∧ (i a).val < win0_1.index t a * S16x8x16384.size a + S16x8x16384.size a := by
  show i ∈ ((View.whole main_v0).slice (win0_1.rect t)).set ↔ _
  rw [View.set_slice_whole, Rect.mem_set_unit]
  exact Iff.rfl

/-- THE COVER: the index (b, c, s) lies in the block of the point `s / 16384`, which writes back. -/
theorem covered (i : S16x8x262144.Idx) :
    ∃ t : Fin cfg0.N, (cfg0.win 1).flush t = true ∧ i ∈ ((cfg0.win 1).blk t).view.set := by
  have hi0 : (i 0).val < 16 := (i 0).isLt
  have hi1 : (i 1).val < 8 := (i 1).isLt
  have hi2 : (i 2).val < 262144 := (i 2).isLt
  have ht : (i 2).val / 16384 < 16 := by omega
  obtain ⟨-, -, -, z0, z1, z2⟩ := block_index ⟨(i 2).val / 16384, ht⟩
  have z2' : win0_1.index ⟨(i 2).val / 16384, ht⟩ (2 : Fin 3) = (i 2).val / 16384 := z2
  refine ⟨⟨(i 2).val / 16384, ht⟩, flush0_1 _, ?_⟩
  rw [mem_block]
  intro a
  match a with
  | ⟨0, _⟩ => show win0_1.index ⟨(i 2).val / 16384, ht⟩ (0 : Fin 3) * 16 ≤ (i 0).val ∧ (i 0).val < win0_1.index ⟨(i 2).val / 16384, ht⟩ (0 : Fin 3) * 16 + 16; omega
  | ⟨1, _⟩ => show win0_1.index ⟨(i 2).val / 16384, ht⟩ (1 : Fin 3) * 8 ≤ (i 1).val ∧ (i 1).val < win0_1.index ⟨(i 2).val / 16384, ht⟩ (1 : Fin 3) * 8 + 8; omega
  | ⟨2, _⟩ => show win0_1.index ⟨(i 2).val / 16384, ht⟩ (2 : Fin 3) * 16384 ≤ (i 2).val ∧ (i 2).val < win0_1.index ⟨(i 2).val / 16384, ht⟩ (2 : Fin 3) * 16384 + 16384; omega

/-- THE RESULT ARRAY after the run is `scaled` of the argument array as launched (no host operation writes the
    argument before the region, so the region finds it as launched). -/
theorem final (c : Dev nD) :
    (dats m 0 c).arrAt 1 cfg0.N = scaled (m ((c : Thread nD τ).loc main_arg0)) :=
  ((dats m 0 c).arrAt_eq_of_cover 1 (scaled (V m c main_arg0)) (fun t _ => flushed_eq m c t) covered).trans
    (congrArg scaled (V_main_arg0 m c))

/-- The kernel's run, read: every weakly fair execution terminates with the result array at `scaled` of the argument
    array and the argument unchanged. -/
theorem run : θ_run defs (onTc (τ := τ) (main (F := F))) ⟨m, fun _ => 0, ρ⟩ fun r => ∀ c : Dev nD,
      r.2.mem ((c : Thread nD τ).loc main_v0) = scaled (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Scaled

end
-- ==== Proof.lean ====
/-
  A per-channel scalar multiply over x : f32[16, 8, 262144] (batch, channel, time): channel 0 is kept (times 1.0), every
  other channel is halved (times 0.5).

  The kernel runs a grid of 16 points over the time axis; each point loads a [16, 8, 16384] block, rebuilds the [1, 8, 1]
  column of factors in registers (an `iota` along the channel axis compared with zero selects between the literals 1.0 and
  0.5), broadcasts it over the block and stores the product into the same block of the output. The reference builds the 8
  factors on the host the same way, lays them out as [1, 8, 1], broadcasts to the whole array and multiplies.

  Read at an index (b, c, t), both are `x (b, c, t)` times `factor c` — the same selection between the same two float
  words, the same product — so the two programs compute one function (`ChannelScale.scaled`) and no law of the extended
  reals is needed, nor the finiteness of the input: the precondition is never opened.

    * ChannelScale  — the function, stated over no program;
    * RefIsScaled   — the reference's run ends at it (the operations read at an index, one after the other);
    * BodyIsScaled  — the kernel's body stores it, at an index of a block;
    * WholeArray    — the 16 blocks written back are the blocks of it and cover the array.

  The ideal pass rewrote nothing in this kernel, so the idealized kernel is the kernel's own text read over the extended
  reals and there is nothing to preserve. The three frames are the generated runs.
-/
import proofs.«109062_j54365696033604_2_alg».proof.Defs
import proofs.«109062_j54365696033604_2_alg».proof.Proof.Gen.Kernel
import proofs.«109062_j54365696033604_2_alg».proof.Proof.Gen.Kernel.Skeleton
import proofs.«109062_j54365696033604_2_alg».proof.Proof.Gen.Kernel.Launch
import proofs.«109062_j54365696033604_2_alg».proof.Proof.Gen.Kernel.Points
import proofs.«109062_j54365696033604_2_alg».proof.Proof.Gen.Kernel.Frame
import proofs.«109062_j54365696033604_2_alg».proof.Proof.Gen.KernelIdeal
import proofs.«109062_j54365696033604_2_alg».proof.Proof.Gen.KernelIdeal.Skeleton
import proofs.«109062_j54365696033604_2_alg».proof.Proof.Gen.KernelIdeal.Launch
import proofs.«109062_j54365696033604_2_alg».proof.Proof.Gen.KernelIdeal.Points
import proofs.«109062_j54365696033604_2_alg».proof.Proof.Gen.KernelIdeal.Frame
import proofs.«109062_j54365696033604_2_alg».proof.Proof.Gen.ReferenceIdeal
import proofs.«109062_j54365696033604_2_alg».proof.Proof.Gen.Pre_finite_inputs
import proofs.«109062_j54365696033604_2_alg».proof.Proof.Gen.KernelIdeal.Value
import proofs.«109062_j54365696033604_2_alg».proof.Proof.Gen.ReferenceIdeal.Run
import proofs.«109062_j54365696033604_2_alg».proof.Proof.Gen.ReferenceIdeal.Read
import proofs.«109062_j54365696033604_2_alg».proof.Proof.RefIsScaled
import proofs.«109062_j54365696033604_2_alg».proof.Proof.WholeArray
import Idealize.ShloMosaic.Adequacy
import Idealize.ShloMosaic.Init

noncomputable section

namespace Cert.Proof

open Idealize.ShloMosaic Idealize.ShloMosaic.TcCoe Idealize.SL.Sem

/-- The word-level kernel runs and leaves its argument as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten, so there is nothing to preserve. -/
theorem preserves : Cert.preserves_Kernel_KernelIdeal := trivial

/-- Over the extended reals the kernel's result array ends at `scaled x` (the blocks written back are its blocks and cover
    the array) and the reference's result ends at its operations' term of `x'`, which read index by index is `scaled x'`;
    the two argument arrays agree. -/
theorem algebraic : Cert.algebraic_KernelIdeal_ReferenceIdeal := by
  intro m ρ m' ρ' _ hagree
  refine ⟨_, Cert.KernelIdeal.Scaled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Scaled.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
